-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256x128 : Shape := ⟨2, ![256, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : IVec S50000 32) (main_arg3 : FVec F S256x128 .f32) (main_arg4 : FVec F S128 .f32) (main_arg5 : FVec F S128x32 .f32) (main_arg6 : FVec F S32 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg5
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg6 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256x128 : Shape := ⟨2, ![256, 128]⟩
abbrev S128 : Shape := ⟨1, ![128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩
abbrev S50000x1 : Shape := ⟨2, ![50000, 1]⟩
abbrev S128x1 : Shape := ⟨2, ![128, 1]⟩

abbrev nBuf : Space → Nat
  | .hbm => 118
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x32, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x32, .f32⟩
  | .hbm, ⟨76, _⟩ => ⟨S850000x1, .f32⟩
  | .hbm, ⟨77, _⟩ => ⟨S850000x32, .f32⟩
  | .hbm, ⟨78, _⟩ => ⟨S850000x32, .f32⟩
  | .hbm, ⟨79, _⟩ => ⟨S_, .f32⟩
  | .hbm, ⟨80, _⟩ => ⟨S50000x32, .f32⟩
  | .hbm, ⟨81, _⟩ => ⟨S850000x1, .i32⟩
  | .hbm, ⟨82, _⟩ => ⟨S50000x32, .f32⟩
  | .hbm, ⟨83, _⟩ => ⟨S1x32, .f32⟩
  | .hbm, ⟨84, _⟩ => ⟨S50000x32, .f32⟩
  | .hbm, ⟨85, _⟩ => ⟨S50000x32, .f32⟩
  | .hbm, ⟨86, _⟩ => ⟨S_, .f32⟩
  | .hbm, ⟨87, _⟩ => ⟨S128x32, .f32⟩
  | .hbm, ⟨88, _⟩ => ⟨S50000x1, .i32⟩
  | .hbm, ⟨89, _⟩ => ⟨S128x32, .f32⟩
  | .hbm, ⟨90, _⟩ => ⟨S_, .f32⟩
  | .hbm, ⟨91, _⟩ => ⟨S50000, .f32⟩
  | .hbm, ⟨92, _⟩ => ⟨S_, .f32⟩
  | .hbm, ⟨93, _⟩ => ⟨S128, .f32⟩
  | .hbm, ⟨94, _⟩ => ⟨S50000x1, .i32⟩
  | .hbm, ⟨95, _⟩ => ⟨S128, .f32⟩
  | .hbm, ⟨96, _⟩ => ⟨S_, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S128x1, .f32⟩
  | .hbm, ⟨101, _⟩ => ⟨S128x32, .f32⟩
  | .hbm, ⟨102, _⟩ => ⟨S128x32, .f32⟩
  | .hbm, ⟨103, _⟩ => ⟨S_, .f32⟩
  | .hbm, ⟨104, _⟩ => ⟨S128, .f32⟩
  | .hbm, ⟨105, _⟩ => ⟨S_, .f32⟩
  | .hbm, ⟨106, _⟩ => ⟨S128, .f32⟩
  | .hbm, ⟨107, _⟩ => ⟨S128, .f32⟩
  | .hbm, ⟨108, _⟩ => ⟨S128x1, .f32⟩
  | .hbm, ⟨109, _⟩ => ⟨S128x32, .f32⟩
  | .hbm, ⟨110, _⟩ => ⟨S128x32, .f32⟩
  | .hbm, ⟨111, _⟩ => ⟨S128x32, .f32⟩
  | .hbm, ⟨112, _⟩ => ⟨S_, .f32⟩
  | .hbm, ⟨113, _⟩ => ⟨S128, .f32⟩
  | .hbm, ⟨114, _⟩ => ⟨S128x1, .f32⟩
  | .hbm, ⟨115, _⟩ => ⟨S128x1, .f32⟩
  | .hbm, ⟨116, _⟩ => ⟨S128x32, .f32⟩
  | .hbm, ⟨117, _⟩ => ⟨S128x32, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x32, .f32⟩
  | .local _ .vmem, ⟨13, _⟩ => ⟨S5000x32, .f32⟩
  | .local _ .vmem, ⟨14, _⟩ => ⟨S5000x32, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_15 : Ref sig .tc := ⟨.hbm, 96, rfl⟩
abbrev main_call1_v0 : Ref sig .tc := ⟨.hbm, 97, rfl⟩
abbrev main_call1_v1 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_call2_cst : Ref sig .tc := ⟨.hbm, 103, rfl⟩
abbrev main_call2_v0 : Ref sig .tc := ⟨.hbm, 104, rfl⟩
abbrev main_call2_cst_0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_v6 : Ref sig .tc := ⟨.hbm, 111, rfl⟩
abbrev main_call2_cst_1 : Ref sig .tc := ⟨.hbm, 112, rfl⟩
abbrev main_call2_v7 : Ref sig .tc := ⟨.hbm, 113, rfl⟩
abbrev main_call2_v8 : Ref sig .tc := ⟨.hbm, 114, rfl⟩
abbrev main_call2_v9 : Ref sig .tc := ⟨.hbm, 115, rfl⟩
abbrev main_call2_v10 : Ref sig .tc := ⟨.hbm, 116, rfl⟩
abbrev main_v74 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S128x32 : S_.BroadcastsInDim S128x32 (![] : Fin 0 → Fin S128x32.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  reducesTo_S128x32_S128_d1 : S128x32.ReducesTo [1] S128
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x32_S5000x32_1_0_0_1_n_n_wf : DotDims.WF S5000x128 S128x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  scatter_S128x32_S50000x1_S50000x32_1_0_0_1_wf : ScatterDims.WF S128x32 S50000x1 S50000x32 [1] [0] [0] 1
  scatter_S128_S50000x1_S50000_n_0_0_1_wf : ScatterDims.WF S128 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x32.size a ≤ S128x32.size a
  hwx2_1 : ∀ i : grid2.Coords, EltTy.bits .f32 = 32 ∨ (Rect.block (s := S128x32) S128x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S50000x32.size a
  hwx2_2 : ∀ i : grid2.Coords, EltTy.bits .f32 = 32 ∨ (Rect.block (s := S50000x32) S5000x32.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def scatter_S128x32_S50000x1_S50000x32_1_0_0_1 : ScatterDims S128x32 S50000x1 S50000x32 where
  updateWindowDims := [1]
  insertedWindowDims := [0]
  scatterDimsToOperandDims := [0]
  indexVectorDim := 1
  wf := scatter_S128x32_S50000x1_S50000x32_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256x128 : Shape := ⟨2, ![256, 128]⟩
abbrev S128 : Shape := ⟨1, ![128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S50000x128 : Shape := ⟨2, ![50000, 128]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x32 : Shape := ⟨2, ![50000, 32]⟩
abbrev S850000x32 : Shape := ⟨2, ![850000, 32]⟩
abbrev S1x32 : Shape := ⟨2, ![1, 32]⟩
abbrev S50000x1 : Shape := ⟨2, ![50000, 1]⟩
abbrev S128x1 : Shape := ⟨2, ![128, 1]⟩

abbrev nBuf : Space → Nat
  | .hbm => 158
  | .vmem => 0
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S256x128, .f32⟩
  | 4 => ⟨S128, .f32⟩
  | 5 => ⟨S128x32, .f32⟩
  | 6 => ⟨S32, .f32⟩
  | 7 => ⟨S1x800000, .i32⟩
  | 8 => ⟨S800000, .i32⟩
  | 9 => ⟨S1x800000, .i32⟩
  | 10 => ⟨S800000, .i32⟩
  | 11 => ⟨S50000x128, .f32⟩
  | 12 => ⟨S50000, .i32⟩
  | 13 => ⟨S850000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x1, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x32, .f32⟩
  | 71 => ⟨S50000, .i32⟩
  | 72 => ⟨S850000, .i32⟩
  | 73 => ⟨S850000, .i32⟩
  | 74 => ⟨S_, .f32⟩
  | 75 => ⟨S850000, .f32⟩
  | 76 => ⟨S_, .f32⟩
  | 77 => ⟨S50000, .f32⟩
  | 78 => ⟨S850000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S_, .f32⟩
  | 86 => ⟨S50000, .f32⟩
  | 87 => ⟨S50000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S850000, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x32, .f32⟩
  | 116 => ⟨S850000x1, .f32⟩
  | 117 => ⟨S850000x32, .f32⟩
  | 118 => ⟨S850000x32, .f32⟩
  | 119 => ⟨S_, .f32⟩
  | 120 => ⟨S50000x32, .f32⟩
  | 121 => ⟨S850000x1, .i32⟩
  | 122 => ⟨S50000x32, .f32⟩
  | 123 => ⟨S1x32, .f32⟩
  | 124 => ⟨S50000x32, .f32⟩
  | 125 => ⟨S50000x32, .f32⟩
  | 126 => ⟨S_, .f32⟩
  | 127 => ⟨S128x32, .f32⟩
  | _ => ⟨S50000x256, .f32⟩

abbrev hbmTy0_1 (i : Nat) : BufTy := match i % 128 with
  | 0 => ⟨S50000x1, .i32⟩
  | 1 => ⟨S128x32, .f32⟩
  | 2 => ⟨S_, .f32⟩
  | 3 => ⟨S50000, .f32⟩
  | 4 => ⟨S_, .f32⟩
  | 5 => ⟨S128, .f32⟩
  | 6 => ⟨S50000x1, .i32⟩
  | 7 => ⟨S128, .f32⟩
  | 8 => ⟨S_, .f32⟩
  | 9 => ⟨S_, .f32⟩
  | 10 => ⟨S128, .f32⟩
  | 11 => ⟨S128, .f32⟩
  | 12 => ⟨S128x1, .f32⟩
  | 13 => ⟨S128x32, .f32⟩
  | 14 => ⟨S128x32, .f32⟩
  | 15 => ⟨S_, .f32⟩
  | 16 => ⟨S128, .f32⟩
  | 17 => ⟨S_, .f32⟩
  | 18 => ⟨S128, .f32⟩
  | 19 => ⟨S128, .f32⟩
  | 20 => ⟨S128x1, .f32⟩
  | 21 => ⟨S128x32, .f32⟩
  | 22 => ⟨S128x32, .f32⟩
  | 23 => ⟨S128x32, .f32⟩
  | 24 => ⟨S_, .f32⟩
  | 25 => ⟨S128, .f32⟩
  | 26 => ⟨S128x1, .f32⟩
  | 27 => ⟨S128x1, .f32⟩
  | 28 => ⟨S128x32, .f32⟩
  | 29 => ⟨S128x32, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_21 : Ref sig .tc := ⟨.hbm, 130, rfl⟩
abbrev main_v94 : Ref sig .tc := ⟨.hbm, 131, rfl⟩
abbrev main_cst_22 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_23 : Ref sig .tc := ⟨.hbm, 136, rfl⟩
abbrev main_call3_v0 : Ref sig .tc := ⟨.hbm, 137, rfl⟩
abbrev main_call3_v1 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_call4_cst : Ref sig .tc := ⟨.hbm, 143, rfl⟩
abbrev main_call4_v0 : Ref sig .tc := ⟨.hbm, 144, rfl⟩
abbrev main_call4_cst_0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_cst_1 : Ref sig .tc := ⟨.hbm, 152, rfl⟩
abbrev main_call4_v7 : Ref sig .tc := ⟨.hbm, 153, rfl⟩
abbrev main_call4_v8 : Ref sig .tc := ⟨.hbm, 154, rfl⟩
abbrev main_call4_v9 : Ref sig .tc := ⟨.hbm, 155, rfl⟩
abbrev main_call4_v10 : Ref sig .tc := ⟨.hbm, 156, rfl⟩
abbrev main_v102 : Ref sig .tc := ⟨.hbm, 157, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S128x32 : S_.BroadcastsInDim S128x32 (![] : Fin 0 → Fin S128x32.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  reducesTo_S128x32_S128_d1 : S128x32.ReducesTo [1] S128
  h_S_ : 0 < S_.numel
  dot_S50000x256_S256x128_S50000x128_1_0_0_1_n_n_wf : DotDims.WF S50000x256 S256x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x32_S50000x32_1_0_0_1_n_n_wf : DotDims.WF S50000x128 S128x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  scatter_S128x32_S50000x1_S50000x32_1_0_0_1_wf : ScatterDims.WF S128x32 S50000x1 S50000x32 [1] [0] [0] 1
  scatter_S128_S50000x1_S50000_n_0_0_1_wf : ScatterDims.WF S128 S50000x1 S50000 [] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def scatter_S128x32_S50000x1_S50000x32_1_0_0_1 : ScatterDims S128x32 S50000x1 S50000x32 where
  updateWindowDims := [1]
  insertedWindowDims := [0]
  scatterDimsToOperandDims := [0]
  indexVectorDim := 1
  wf := scatter_S128x32_S50000x1_S50000x32_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf

class Facts : Prop extends Facts₀ where

variable [Facts]
-- ==== Proof.KernelRun.lean ====
/-
  The kernel's run with its result named. @main is three pipelined regions among stretches of host operations; the
  contents of the TensorCore's buffers at each boundary are a fold from the launch memory — a host stretch rewrites the
  buffers its operations write, a region leaves its arrays at what its write-backs leave and every other buffer as
  entered. The last boundary's contents are `W11`. Every weakly fair execution terminates, nothing faulting, with every
  unscoped buffer at `W11`; read at the result buffer and at the seven arguments this is the run stated below: the
  result at `W11`'s value there, the arguments as launched.
-/
import proofs.«135749_j3676492005492_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result buffer at the last
    boundary's contents and the argument arrays as launched. -/
theorem run_value : θ_run defs (onTc (τ := τ) (main (F := F))) ⟨m, fun _ => 0, ρ⟩ (fun r => ∀ c : Dev nD,
      r.2.mem ((c.tc : Thread nD τ).loc main_v74) = W11 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v74 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.KernelIdeal.KRun

end
-- ==== Proof.Slices.lean ====
/-
  The reference's operations, cut where the kernel's run has its boundaries. The reference is one straight line of 151
  host operations; the kernel's run alternates host stretches and regions. To compare the two stretch by stretch the
  reference's list is cut into six consecutive slices, each the counterpart of a part of the kernel's run; running the
  slices one after the other is running the list.
-/
import proofs.«135749_j3676492005492_1_alg».proof.Proof.RunP
import Idealize.ShloMosaic.PureOps.Ideal

set_option maxRecDepth 16384

noncomputable section

namespace Cert.Sim

open Idealize.ShloMosaic Idealize.ShloMosaic.TcCoe Idealize.SL.Sem Idealize.ShloMosaic.StableHlo

/-- The reference's operation list at the ideal values. -/
abbrev opsR : List (HloOp Cert.ReferenceIdeal.τ Cert.ReferenceIdeal.sig (Elt Ideal)) := Cert.ReferenceIdeal.ValueP.ops (F := Ideal)
/-- The reference's operations in six consecutive slices: the two rows of the edge list; the first projection, the
    self-loops, the degrees and the edge weights; the first propagation, bias and relu; the second projection; the
    self-loops, degrees and edge weights once more; the second propagation, the bias, the mean over each graph and
    `log_softmax`. -/
abbrev sliceRows : List (HloOp Cert.ReferenceIdeal.τ Cert.ReferenceIdeal.sig (Elt Ideal)) := List.take 4 opsR
abbrev sliceNorm : List (HloOp Cert.ReferenceIdeal.τ Cert.ReferenceIdeal.sig (Elt Ideal)) := List.take 37 (List.drop 4 opsR)
abbrev sliceLayer1 : List (HloOp Cert.ReferenceIdeal.τ Cert.ReferenceIdeal.sig (Elt Ideal)) := List.take 22 (List.drop 41 opsR)
abbrev sliceProj2 : List (HloOp Cert.ReferenceIdeal.τ Cert.ReferenceIdeal.sig (Elt Ideal)) := List.take 1 (List.drop 63 opsR)
abbrev sliceNorm2 : List (HloOp Cert.ReferenceIdeal.τ Cert.ReferenceIdeal.sig (Elt Ideal)) := List.take 36 (List.drop 64 opsR)
abbrev sliceTail : List (HloOp Cert.ReferenceIdeal.τ Cert.ReferenceIdeal.sig (Elt Ideal)) := List.drop 100 opsR

/-- The reference's list is its six slices run one after the other. -/
theorem ref_split (V : Valuation Cert.ReferenceIdeal.τ Cert.ReferenceIdeal.sig (Elt Ideal)) :
    StableHlo.after opsR V = StableHlo.after sliceTail (StableHlo.after sliceNorm2 (StableHlo.after sliceProj2
      (StableHlo.after sliceLayer1 (StableHlo.after sliceNorm (StableHlo.after sliceRows V))))) := rfl

end Cert.Sim

end
-- ==== Proof.RefFold.lean ====
/-
  The reference's run, its result left as the fold. The reference is a straight line of host operations on a
  signature that scopes nothing, so every weakly fair execution terminates and leaves each buffer at the fold of the
  operations' results over the launch contents. Read at the result buffer that is the fold itself; read at an argument
  it is the launch contents, since no operation writes an argument.
-/
import proofs.«135749_j3676492005492_1_alg».proof.Proof.Slices

set_option maxRecDepth 16384

noncomputable section

namespace Cert.Sim

open Idealize.ShloMosaic Idealize.ShloMosaic.TcCoe Idealize.SL.Sem Idealize.ShloMosaic.StableHlo
open Cert.ReferenceIdeal Cert.ReferenceIdeal.Gen

set_option maxRecDepth 8192 in
set_option maxHeartbeats 60400000 in
/-- Every weakly fair execution of the reference terminates with its result buffer at the fold of its operations over
    the launch contents and its arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v102) = StableHlo.after opsR (launchContents m c) (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨h c main_v102,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq ValueP.scopedRefs_eq ValueP.scopedSems_eq defs main (fun _ => ValueP.ops) ValueP.main_eq (fun _ => ValueP.ops_sub) m ρ)

end Cert.Sim

end
-- ==== Proof.LibMat.lean ====
/-
  A matrix product read at an index. For the plain dimension numbers (rows × contraction times contraction × columns)
  a `tpu.matmul` into the zero accumulator, at the ideal values, is at (a, b) the sum over the contracted coordinate `c`
  of the left operand at (a, c) times the right operand at (c, b): the contraction's index set has one axis, and the sum
  over it is re-indexed by that axis's coordinate.
-/
import Idealize.ShloMosaic.PureOps.Ideal.Laws
import Idealize.ShloMosaic.Lib.ValueIdx
import Idealize.ShloMosaic.Lib.ValueLayout

noncomputable section

open scoped BigOperators

namespace Cert.LibMat

open Idealize.ShloMosaic Idealize.ShloMosaic.ValueIdx

/-- The plain dimension numbers over any witness of their well-formedness. -/
abbrev plainDims {m k n : ℕ} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- A plain matrix product into the zero accumulator, at (a, b): the sum over the contracted coordinate. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (plainDims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMat

end
-- ==== Proof.LibDotHost.lean ====
/-
  The host's matrix product read at an index. For the plain dimension numbers (rows × contraction times
  contraction × columns) a `stablehlo.dot_general`, at the ideal values, is at (a, b) the sum over the contracted
  coordinate `c` of the left operand at (a, c) times the right operand at (c, b) — the same sum a `tpu.matmul` into the
  zero accumulator is (LibMat), so a row block of the one is the matching rows of the other.
-/
import Idealize.ShloMosaic.PureOps.Ideal.Laws
import Idealize.ShloMosaic.Lib.ValueIdx
import Idealize.ShloMosaic.Lib.ValueLayout
import proofs.«135749_j3676492005492_1_alg».proof.Proof.LibMat

noncomputable section

open scoped BigOperators

namespace Cert.LibDotHost

open Idealize.ShloMosaic Idealize.ShloMosaic.ValueIdx Cert.LibMat

/-- A plain host matrix product at (a, b): the sum over the contracted coordinate. Generic in the three extents, the
    operands' formats, the precision and the witness of the dimension numbers' well-formedness. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (plainDims w) prec A B (ix2 a b) = ∑ c : Fin k, A (ix2 a c) * B (ix2 c b) := by
  show FloatOps.dotGeneral _ prec .single A B (ix2 a b) = _
  rw [Ideal.dotGeneral_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A row block of a plain `tpu.matmul` into the zero accumulator is the matching rows of the host's product: if the
    block's left operand at (p, c) is the whole left operand at (a, c) and the right operands agree on column `q` / `b`,
    then the block's product at (p, q) is the whole product at (a, b). -/
theorem matmul_block_eq_dotGeneral {m m' k n n' : ℕ} {φ₁ φ₂ ψ₁ ψ₂ : FTy}
    (w : DotDims.WF ⟨2, ![m, k]⟩ ⟨2, ![k, n]⟩ ⟨2, ![m, n]⟩ [1] [0] [0] [1] [] [])
    (w' : DotDims.WF ⟨2, ![m', k]⟩ ⟨2, ![k, n']⟩ ⟨2, ![m', n']⟩ [1] [0] [0] [1] [] [])
    (prec prec' : Option ContractPrecision)
    (x0 : FVec Ideal ⟨2, ![m, k]⟩ φ₁) (x1 : FVec Ideal ⟨2, ![k, n]⟩ φ₂)
    (X : FVec Ideal ⟨2, ![m', k]⟩ ψ₁) (W : FVec Ideal ⟨2, ![k, n']⟩ ψ₂)
    (p : Fin m) (q : Fin n) (a : Fin m') (b : Fin n')
    (h0 : ∀ c : Fin k, x0 (ix2 p c) = X (ix2 a c)) (h1 : ∀ c : Fin k, x1 (ix2 c q) = W (ix2 c b)) :
    matmul (plainDims w) prec x0 x1 (constant ⟨2, ![m, n]⟩ .f32 0x00000000#32) (ix2 p q)
      = Host.dotGeneral (plainDims w') prec' X W (ix2 a b) :=
  (matmul_plain_apply w prec x0 x1 p q).trans
    ((Finset.sum_congr rfl fun c _ => by rw [h0 c, h1 c]).trans (dotGeneral_plain_apply w' prec' X W a b).symm)

end Cert.LibDotHost

end
-- ==== Proof.Proj1.lean ====
/-
  The first projection, block by block. The first region multiplies, at each of its ten grid points, 5000 rows of the
  node features (cast to bf16, the identity at the ideal values) by the whole first weight matrix into a zero
  accumulator, and writes the 5000 × 128 product back as that point's row block of its result array. A row of a matrix
  product depends on that row of the left operand alone, so point `t`'s block is rows 5000·t … 5000·t + 4999 of the
  product of the WHOLE feature matrix with the weights; the ten blocks tile the 50000 rows, so after the region the
  result array is that whole product — the host's `dot_general` of the two arrays as the region found them.
-/
import proofs.«135749_j3676492005492_1_alg».proof.Proof.Gen.KernelIdeal.Frame
import proofs.«135749_j3676492005492_1_alg».proof.Proof.Gen.ReferenceIdeal
import proofs.«135749_j3676492005492_1_alg».proof.Proof.LibDotHost
import Idealize.ShloMosaic.Lib.Pipeline.Value
import Idealize.ShloMosaic.Lib.ValueIdx

set_option maxRecDepth 16384

noncomputable section

open scoped BigOperators

namespace Cert.KernelIdeal.Proj1

open Idealize.ShloMosaic Idealize.ShloMosaic.TcCoe Idealize.ShloMosaic.ValueIdx Idealize.SL.Sem
open Cert.KernelIdeal Cert.KernelIdeal.Gen

theorem zeros2 : (![0, 0] : Fin 2 → Nat) = fun _ => 0 := funext fun a => by fin_cases a <;> rfl

/-- The whole first projection: the host's product of the feature matrix with the first weights. -/
def proj1 (X : FVec Ideal S50000x256 .f32) (W : FVec Ideal S256x128 .f32) : FVec Ideal S50000x128 .f32 :=
  Host.dotGeneral Cert.ReferenceIdeal.dot_S50000x256_S256x128_S50000x128_1_0_0_1_n_n none X W

/-- One entry of a block's product is the entry of the whole product whose row is the block's row in the array: both
    are the sum, over the contracted coordinate, of the products of the same entries. -/
theorem proj1_point (X : FVec Ideal S50000x256 .f32) (W : FVec Ideal S256x128 .f32)
    (x0 : Vec Ideal S5000x256 .f32) (x1 : Vec Ideal S256x128 .f32)
    (p : Fin 5000) (q : Fin 128) (a : Fin 50000) (b : Fin 128)
    (h0 : ∀ c : Fin 256, x0 (ix2 p c) = X (ix2 a c)) (h1 : ∀ c : Fin 256, x1 (ix2 c q) = W (ix2 c b)) :
    k0_pay1 (F := Ideal) x0 x1 (ix2 p q) = proj1 X W (ix2 a b) := by
  unfold k0_pay1 proj1
  exact Cert.LibDotHost.matmul_block_eq_dotGeneral _ _ none none _ _ X W p q a b h0 h1

/-- The printed index maps, decided over the grid: the left operand's row block moves with the result's, its column
    block and both of the weight window's stay at 0, the result's column block is 0 and its row block at most 9. -/
theorem index_maps : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

variable (V : (c : Dev nD) → (b : Ref sig .tc) → Buf (Elt Ideal) ((c : Thread nD τ).loc b))

/-- What point `t` writes back is block `t` of the whole product of the two arrays as the region finds them. -/
theorem flushed_eq (c : Dev nD) (t : Fin cfg0.N) :
    (dat0 (F := Ideal) V c).flushed 2 t
      = ((cfg0.win 2).blk t).view.read (Elt Ideal) (proj1 (V c main_arg0) (V c main_arg3)) := by
  show (cfg0.win 2).cut (grid0.coords t) ((dat0 V c).after 2 t) = _
  rw [after0_2]
  unfold out0_2
  rw [View.canon_unit_zero zeros2]
  simp only [View.ld_unit_zero (S := S5000x256) zeros2, View.ld_unit_zero (S := S256x128) zeros2]
  obtain ⟨e0, e1, e2, e3, e4, e5⟩ := index_maps t
  funext j
  show k0_pay1 (iblk0 V c 0 t) (iblk0 V c 1 t) j
    = proj1 (V c main_arg0) (V c main_arg3) (((cfg0.win 2).blk t).view.emb j)
  refine (congrArg (k0_pay1 (F := Ideal) (iblk0 V c 0 t) (iblk0 V c 1 t)) (eq_ix2 (n0 := 5000) (n1 := 128) j)).trans ?_
  refine Eq.trans ?_ (congrArg (proj1 (V c main_arg0) (V c main_arg3))
    (eq_ix2 (n0 := 50000) (n1 := 128) (((cfg0.win 2).blk t).view.emb j))).symm
  refine proj1_point (V c main_arg0) (V c main_arg3) (iblk0 V c 0 t) (iblk0 V c 1 t) (j 0) (j 1) _ _ (fun cc => ?_) (fun cc => ?_)
  · show V c main_arg0 (((cfg0.win 0).blk t).view.emb (ix2 (j 0) cc))
      = V c main_arg0 (ix2 ((((cfg0.win 2).blk t).view.emb j) 0) cc)
    refine congrArg _ (funext fun ax => Fin.ext ?_)
    match ax with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * cc.val = cc.val; omega
  · show V c main_arg3 (((cfg0.win 1).blk t).view.emb (ix2 cc (j 1)))
      = V c main_arg3 (ix2 cc ((((cfg0.win 2).blk t).view.emb j) 1))
    refine congrArg _ (funext fun ax => Fin.ext ?_)
    match ax with
    | ⟨0, _⟩ => show win0_1.index t (0 : Fin 2) * 256 + 1 * cc.val = cc.val; omega
    | ⟨1, _⟩ => show win0_1.index t (1 : Fin 2) * 128 + 1 * (j 1).val = win0_2.index t (1 : Fin 2) * 128 + 1 * (j 1).val; omega

/-- An index of the result array is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- The ten row blocks tile the array: row `r` is in the block of the point whose row block is `r / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its result array holds the whole product of the two arrays as the region found them. -/
theorem value (c : Dev nD) :
    (dat0 (F := Ideal) V c).arrAt 2 cfg0.N = proj1 (V c main_arg0) (V c main_arg3) :=
  (dat0 (F := Ideal) V c).arrAt_eq_of_cover 2 _ (fun t _ => flushed_eq V c t) cover

end Cert.KernelIdeal.Proj1

end
-- ==== Proof.BiasRelu.lean ====
/-
  Bias and relu, block by block. The second region takes, at each of its ten grid points, 5000 rows of the aggregated
  first layer and the one row holding the first bias (the bias vector reshaped to 1 × 128 on the host), adds the bias
  row to every row and takes the maximum with 0, and writes the 5000 × 128 result back as that point's row block. The
  operation is entry by entry: the result at (r, q) is max (agg (r, q) + b (q), 0), whatever block row r falls in. The
  ten blocks tile the 50000 rows, so after the region the result array is the whole array
  `maximum (agg + broadcast b, broadcast 0)` — the reference's bias addition followed by its `relu`, spelt with the host's
  two broadcasts of the bias ([128] → [1, 128] → [50000, 128]) and its broadcast of the scalar 0.
-/
import proofs.«135749_j3676492005492_1_alg».proof.Proof.Gen.KernelIdeal.Frame
import proofs.«135749_j3676492005492_1_alg».proof.Proof.Gen.ReferenceIdeal
import Idealize.ShloMosaic.PureOps.Ideal
import Idealize.ShloMosaic.Lib.Pipeline.Value
import Idealize.ShloMosaic.Lib.ValueIdx
import Idealize.ShloMosaic.Lib.ValueLayout

set_option maxRecDepth 16384

noncomputable section

namespace Cert.KernelIdeal.BiasRelu

open Idealize.ShloMosaic Idealize.ShloMosaic.TcCoe Idealize.ShloMosaic.ValueIdx Idealize.SL.Sem
open Cert.KernelIdeal Cert.KernelIdeal.Gen

theorem zeros2 : (![0, 0] : Fin 2 → Nat) = fun _ => 0 := funext fun a => by fin_cases a <;> rfl

/-- The whole array after bias and relu, in the host's spelling: the aggregate plus the bias broadcast along the rows,
    then the maximum with the broadcast scalar 0. -/
def biasRelu (A : FVec Ideal S50000x128 .f32) (b : FVec Ideal S128 .f32) : FVec Ideal S50000x128 .f32 :=
  maximumf (addf A (broadcastInDim S50000x128 ![0, 1] Cert.ReferenceIdeal.Facts₀.bcast_S1x128_S50000x128_0_1
      (broadcastInDim S1x128 ![1] Cert.ReferenceIdeal.Facts₀.bcast_S128_S1x128_1 b)))
    (broadcastInDim S50000x128 ![] Cert.ReferenceIdeal.Facts₀.bcast_S_S50000x128 (constant (F := Ideal) S_ .f32 0x00000000#32))

/-- The whole array at (a, q): max (A (a, q) + b (q), 0). -/
theorem biasRelu_apply (A : FVec Ideal S50000x128 .f32) (b : FVec Ideal S128 .f32) (a : Fin 50000) (q : Fin 128) :
    biasRelu A b (ix2 a q) = max (A (ix2 a q) + b (ix1 q)) (Ideal.ofBits .f32 0x00000000#32) := by
  have e1 : broadcastInDim S50000x128 ![0, 1] Cert.ReferenceIdeal.Facts₀.bcast_S1x128_S50000x128_0_1
      (broadcastInDim S1x128 ![1] Cert.ReferenceIdeal.Facts₀.bcast_S128_S1x128_1 b) (ix2 a q) = b (ix1 q) :=
    (broadcastInDim_apply _ _ _ (ix2 a q) (ix2 (0 : Fin 1) q) (fun ax => by
      match ax with
      | ⟨0, _⟩ => rfl
      | ⟨1, _⟩ => rfl)).trans
    (broadcastInDim_apply _ _ b (ix2 (0 : Fin 1) q) (ix1 q) (fun ax => by
      match ax with
      | ⟨0, _⟩ => rfl))
  have e2 : broadcastInDim S50000x128 ![] Cert.ReferenceIdeal.Facts₀.bcast_S_S50000x128 (constant (F := Ideal) S_ .f32 0x00000000#32) (ix2 a q)
      = Ideal.ofBits .f32 0x00000000#32 :=
    broadcastInDim_apply _ _ _ (ix2 a q) (fun d => d.elim0) (fun ax => ax.elim0)
  show max (A (ix2 a q) + _) _ = _
  rw [e1, e2]

/-- The block's result at (p, q): max (x (p, q) + row (0, q), 0) — the payload's two casts are to the operands' own
    shapes, and the bias row is broadcast over the block's rows. -/
theorem payload_apply (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) (Ideal.ofBits .f32 0x00000000#32) := by
  unfold k1_pay1
  rw [shapeCast_self x0, shapeCast_self x1]
  exact congrArg (fun z => max (x0 (ix2 p q) + z) (Ideal.ofBits .f32 0x00000000#32)) (broadcastTo_1b_ab_apply x1 _ p q)

/-- One entry of a block's result is the entry of the whole array at the block's row in the array. -/
theorem biasRelu_point (A : FVec Ideal S50000x128 .f32) (b : FVec Ideal S128 .f32)
    (x0 : Vec Ideal S5000x128 .f32) (x1 : Vec Ideal S1x128 .f32) (p : Fin 5000) (q : Fin 128) (a : Fin 50000) (q' : Fin 128)
    (h0 : x0 (ix2 p q) = A (ix2 a q')) (h1 : x1 (ix2 (0 : Fin 1) q) = b (ix1 q')) :
    k1_pay1 (F := Ideal) x0 x1 (ix2 p q) = biasRelu A b (ix2 a q') := by
  rw [payload_apply, biasRelu_apply, h0, h1]

/-- The printed index maps, decided over the grid: the aggregate's row block moves with the result's, every other
    block index is 0, and the result's row block is at most 9. -/
theorem index_maps : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every row block is some point's. -/
theorem index_onto : ∀ q0 : Fin 10, ∃ t : Fin cfg1.N, win1_2.index t = ![q0.val, 0] :=
  (by decide +kernel : ∀ q0 : Fin 10, ∃ t : Fin grid1.N, win1_2.index t = ![q0.val, 0])

variable (V : (c : Dev nD) → (b : Ref sig .tc) → Buf (Elt Ideal) ((c : Thread nD τ).loc b))

/-- What point `t` writes back is block `t` of the whole bias-and-relu array, when the bias row the region finds is the
    bias vector `b` laid along its one row. -/
theorem flushed_eq (c : Dev nD) (b : FVec Ideal S128 .f32)
    (hb : ∀ q : Fin 128, V c main_v44 (ix2 (0 : Fin 1) q) = b (ix1 q)) (t : Fin cfg1.N) :
    (dat1 (F := Ideal) V c).flushed 2 t
      = ((cfg1.win 2).blk t).view.read (Elt Ideal) (biasRelu (V c main_v43) b) := by
  show (cfg1.win 2).cut (grid1.coords t) ((dat1 V c).after 2 t) = _
  rw [after1_2]
  unfold out1_2
  rw [View.canon_unit_zero zeros2]
  simp only [View.ld_unit_zero (S := S5000x128) zeros2, View.ld_unit_zero (S := S1x128) zeros2]
  obtain ⟨e0, e1, e2, e3, e4, e5⟩ := index_maps t
  funext j
  show k1_pay1 (iblk1 V c 0 t) (iblk1 V c 1 t) j = biasRelu (V c main_v43) b (((cfg1.win 2).blk t).view.emb j)
  refine (congrArg (k1_pay1 (F := Ideal) (iblk1 V c 0 t) (iblk1 V c 1 t)) (eq_ix2 (n0 := 5000) (n1 := 128) j)).trans ?_
  refine Eq.trans ?_ (congrArg (biasRelu (V c main_v43) b)
    (eq_ix2 (n0 := 50000) (n1 := 128) (((cfg1.win 2).blk t).view.emb j))).symm
  refine biasRelu_point (V c main_v43) b (iblk1 V c 0 t) (iblk1 V c 1 t) (j 0) (j 1) _ _ ?_ ?_
  · show V c main_v43 (((cfg1.win 0).blk t).view.emb (ix2 (j 0) (j 1)))
      = V c main_v43 (ix2 ((((cfg1.win 2).blk t).view.emb j) 0) ((((cfg1.win 2).blk t).view.emb j) 1))
    refine congrArg _ (funext fun ax => Fin.ext ?_)
    match ax with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · refine Eq.trans ?_ (hb ((((cfg1.win 2).blk t).view.emb j) 1))
    show V c main_v44 (((cfg1.win 1).blk t).view.emb (ix2 (0 : Fin 1) (j 1)))
      = V c main_v44 (ix2 (0 : Fin 1) ((((cfg1.win 2).blk t).view.emb j) 1))
    refine congrArg _ (funext fun ax => Fin.ext ?_)
    match ax with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- An index of the result array is in point `t`'s block iff each coordinate is in the block's range on its axis. -/
theorem mem_block (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- The ten row blocks tile the array: row `r` is in the block of the point whose row block is `r / 5000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region its result array holds the whole bias-and-relu array of the aggregate as the region found it. -/
theorem value (c : Dev nD) (b : FVec Ideal S128 .f32)
    (hb : ∀ q : Fin 128, V c main_v44 (ix2 (0 : Fin 1) q) = b (ix1 q)) :
    (dat1 (F := Ideal) V c).arrAt 2 cfg1.N = biasRelu (V c main_v43) b :=
  (dat1 (F := Ideal) V c).arrAt_eq_of_cover 2 _ (fun t _ => flushed_eq V c b hb t) cover

end Cert.KernelIdeal.BiasRelu

end
-- ==== Proof.Proj2.lean ====
/-
  The second projection, block by block. The third region multiplies, at each of its ten grid points, 5000 rows of the
  activated first layer (cast to bf16, the identity at the ideal values) by the whole second weight matrix into a zero
  accumulator, and writes the 5000 × 32 product back as that point's row block of its result array. As for the first
  projection, a row of the product depends on that row of the left operand alone and the ten blocks tile the 50000 rows:
  after the region the result array is the host's `dot_general` of the two arrays as the region found them.
-/
import proofs.«135749_j3676492005492_1_alg».proof.Proof.Gen.KernelIdeal.Frame
import proofs.«135749_j3676492005492_1_alg».proof.Proof.Gen.ReferenceIdeal
import proofs.«135749_j3676492005492_1_alg».proof.Proof.LibDotHost
import Idealize.ShloMosaic.Lib.Pipeline.Value
import Idealize.ShloMosaic.Lib.ValueIdx

set_option maxRecDepth 16384

noncomputable section

open scoped BigOperators

namespace Cert.KernelIdeal.Proj2

open Idealize.ShloMosaic Idealize.ShloMosaic.TcCoe Idealize.ShloMosaic.ValueIdx Idealize.SL.Sem
open Cert.KernelIdeal Cert.KernelIdeal.Gen

theorem zeros2 : (![0, 0] : Fin 2 → Nat) = fun _ => 0 := funext fun a => by fin_cases a <;> rfl

/-- The whole second projection: the host's product of the activated first layer with the second weights. -/
def proj2 (X : FVec Ideal S50000x128 .f32) (W : FVec Ideal S128x32 .f32) : FVec Ideal S50000x32 .f32 :=
  Host.dotGeneral Cert.ReferenceIdeal.dot_S50000x128_S128x32_S50000x32_1_0_0_1_n_n none X W

/-- One entry of a block's product is the entry of the whole product whose row is the block's row in the array: both
    are the sum, over the contracted coordinate, of the products of the same entries. -/
theorem proj2_point (X : FVec Ideal S50000x128 .f32) (W : FVec Ideal S128x32 .f32)
    (x0 : Vec Ideal S5000x128 .f32) (x1 : Vec Ideal S128x32 .f32)
    (p : Fin 5000) (q : Fin 32) (a : Fin 50000) (b : Fin 32)
    (h0 : ∀ c : Fin 128, x0 (ix2 p c) = X (ix2 a c)) (h1 : ∀ c : Fin 128, x1 (ix2 c q) = W (ix2 c b)) :
    k2_pay1 (F := Ideal) x0 x1 (ix2 p q) = proj2 X W (ix2 a b) := by
  unfold k2_pay1 proj2
  rw [shapeCast_self]
  exact Cert.LibDotHost.matmul_block_eq_dotGeneral _ _ none none _ _ X W p q a b h0 h1

/-- The printed index maps, decided over the grid: the left operand's row block moves with the result's, its column
    block and both of the weight window's stay at 0, the result's column block is 0 and its row block at most 9. -/
theorem index_maps : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block is some point's. -/
theorem index_onto : ∀ q0 : Fin 10, ∃ t : Fin cfg2.N, win2_2.index t = ![q0.val, 0] :=
  (by decide +kernel : ∀ q0 : Fin 10, ∃ t : Fin grid2.N, win2_2.index t = ![q0.val, 0])

variable (V : (c : Dev nD) → (b : Ref sig .tc) → Buf (Elt Ideal) ((c : Thread nD τ).loc b))

/-- What point `t` writes back is block `t` of the whole product of the two arrays as the region finds them. -/
theorem flushed_eq (c : Dev nD) (t : Fin cfg2.N) :
    (dat2 (F := Ideal) V c).flushed 2 t
      = ((cfg2.win 2).blk t).view.read (Elt Ideal) (proj2 (V c main_v45) (V c main_arg5)) := by
  show (cfg2.win 2).cut (grid2.coords t) ((dat2 V c).after 2 t) = _
  rw [after2_2]
  unfold out2_2
  rw [View.canon_unit_zero zeros2]
  simp only [View.ld_unit_zero (S := S5000x128) zeros2, View.ld_unit_zero (S := S128x32) zeros2]
  obtain ⟨e0, e1, e2, e3, e4, e5⟩ := index_maps t
  funext j
  show k2_pay1 (iblk2 V c 0 t) (iblk2 V c 1 t) j
    = proj2 (V c main_v45) (V c main_arg5) (((cfg2.win 2).blk t).view.emb j)
  refine (congrArg (k2_pay1 (F := Ideal) (iblk2 V c 0 t) (iblk2 V c 1 t)) (eq_ix2 (n0 := 5000) (n1 := 32) j)).trans ?_
  refine Eq.trans ?_ (congrArg (proj2 (V c main_v45) (V c main_arg5))
    (eq_ix2 (n0 := 50000) (n1 := 32) (((cfg2.win 2).blk t).view.emb j))).symm
  refine proj2_point (V c main_v45) (V c main_arg5) (iblk2 V c 0 t) (iblk2 V c 1 t) (j 0) (j 1) _ _ (fun cc => ?_) (fun cc => ?_)
  · show V c main_v45 (((cfg2.win 0).blk t).view.emb (ix2 (j 0) cc))
      = V c main_v45 (ix2 ((((cfg2.win 2).blk t).view.emb j) 0) cc)
    refine congrArg _ (funext fun ax => Fin.ext ?_)
    match ax with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * cc.val = cc.val; omega
  · show V c main_arg5 (((cfg2.win 1).blk t).view.emb (ix2 cc (j 1)))
      = V c main_arg5 (ix2 cc ((((cfg2.win 2).blk t).view.emb j) 1))
    refine congrArg _ (funext fun ax => Fin.ext ?_)
    match ax with
    | ⟨0, _⟩ => show win2_1.index t (0 : Fin 2) * 128 + 1 * cc.val = cc.val; omega
    | ⟨1, _⟩ => show win2_1.index t (1 : Fin 2) * 32 + 1 * (j 1).val = win2_2.index t (1 : Fin 2) * 32 + 1 * (j 1).val; omega

/-- An index of the result array is in point `t`'s block iff each coordinate is in the block's range on its axis. -/
theorem mem_block (t : Fin cfg2.N) (i : S50000x32.Idx) :
    i ∈ ((cfg2.win 2).blk t).view.set ↔ ∀ a : Fin 2, win2_2.index t a * S5000x32.size a ≤ (i a).val
      ∧ (i a).val < win2_2.index t a * S5000x32.size a + S5000x32.size a := by
  show i ∈ ((View.whole main_v46).slice (win2_2.rect t)).set ↔ _
  rw [View.set_slice_whole, Rect.mem_set_unit]
  exact Iff.rfl

/-- The ten row blocks tile the array: row `r` is in the block of the point whose row block is `r / 5000`. -/
theorem cover (i : S50000x32.Idx) : ∃ t : Fin cfg2.N, (cfg2.win 2).flush t = true ∧ i ∈ ((cfg2.win 2).blk t).view.set := by
  have hi0 : (i 0).val < 50000 := (i 0).isLt
  have hi1 : (i 1).val < 32 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- After the region its result array holds the whole product of the two arrays as the region found them. -/
theorem value (c : Dev nD) :
    (dat2 (F := Ideal) V c).arrAt 2 cfg2.N = proj2 (V c main_v45) (V c main_arg5) :=
  (dat2 (F := Ideal) V c).arrAt_eq_of_cover 2 _ (fun t _ => flushed_eq V c t) cover

end Cert.KernelIdeal.Proj2

end
-- ==== Proof.Levels.lean ====
/-
  The three regions' results at the boundaries of the kernel's run. At the exit of each region its result buffer holds
  what the region's write-backs leave, which the block-by-block modules identify: the first projection of the feature
  matrix and the first weights as the first region found them; bias and relu of the first aggregate, the bias row being
  the host's reshape of the bias vector to 1 × 128; the second projection of that result and the second weights.
-/
import proofs.«135749_j3676492005492_1_alg».proof.Proof.Gen.KernelIdeal.Frame
import proofs.«135749_j3676492005492_1_alg».proof.Proof.Proj1
import proofs.«135749_j3676492005492_1_alg».proof.Proof.BiasRelu
import proofs.«135749_j3676492005492_1_alg».proof.Proof.Proj2
import Idealize.ShloMosaic.Lib.StableHlo.Run
import Idealize.ShloMosaic.Lib.ValueLayout

set_option maxRecDepth 16384

noncomputable section

namespace Cert.KernelIdeal.Levels

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- At the first region's exit its result buffer holds the first projection of the arrays it was entered with. -/
theorem after_proj1 : W4 m ρ c (Proc.devRef .tc main_v30)
    = Proj1.proj1 (W3 m ρ c (Proc.devRef .tc main_arg0)) (W3 m ρ c (Proc.devRef .tc main_arg3)) :=
  (W4_arr m ρ c 2).trans (Proj1.value (V3 m ρ) c)

/-- The bias row the second region finds is the bias vector laid along its one row: the host stretch before it ends by
    reshaping the vector to 1 × 128, and no operation of the stretch writes the vector. -/
theorem bias_row (q : Fin 128) :
    V5 m ρ c main_v44 (ix2 (0 : Fin 1) q) = W4 m ρ c (Proc.devRef .tc main_arg4) (ix1 q) := by
  have e : StableHlo.after hostOps1 (W4 m ρ c) (Proc.devRef .tc main_v44)
      = shapeCast S1x128 (W4 m ρ c (Proc.devRef .tc main_arg4)) Facts₀.shapeCasts_S128_S1x128 := by
    simp only [hostOps1]
    after_results_simp
    rfl
  show StableHlo.after hostOps1 (W4 m ρ c) (Proc.devRef .tc main_v44) (ix2 (0 : Fin 1) q) = _
  rw [e]
  exact shapeCast_a_1a_apply _ _ (0 : Fin 1) q

/-- At the second region's exit its result buffer holds bias and relu of the first aggregate as the host stretch before
    the region left it, with the bias vector as that stretch found it. -/
theorem after_biasRelu : W6 m ρ c (Proc.devRef .tc main_v45)
    = BiasRelu.biasRelu (W5 m ρ c (Proc.devRef .tc main_v43)) (W4 m ρ c (Proc.devRef .tc main_arg4)) :=
  (W6_arr m ρ c 2).trans (BiasRelu.value (V5 m ρ) c _ (bias_row m ρ c))

/-- At the third region's exit its result buffer holds the second projection of the arrays it was entered with. -/
theorem after_proj2 : W7 m ρ c (Proc.devRef .tc main_v46)
    = Proj2.proj2 (W6 m ρ c (Proc.devRef .tc main_v45)) (W6 m ρ c (Proc.devRef .tc main_arg5)) :=
  (W7_arr m ρ c 2).trans (Proj2.value (V6 m ρ) c)

end Cert.KernelIdeal.Levels

end
-- ==== Proof.StageNorm.lean ====
/-
  Stretch by stretch, the two programs do the same thing: the first stretch. A stage lemma takes the buffer contents the
  kernel has at one boundary of its run (`WK`) and the contents the reference has before the matching slice of its list
  (`WR`), assumes they agree on the buffers the stretch reads, and concludes that they agree on what it writes: both sides
  are the operations' composed terms over the contents at the buffers read, and after the hypotheses are used the two
  terms are one. Here: appending the self-loops to the two rows of the edge list, counting the degrees, taking their
  inverse square roots where positive, and multiplying the two gathered factors into the edge weights.
-/
import proofs.«135749_j3676492005492_1_alg».proof.Proof.Levels
import proofs.«135749_j3676492005492_1_alg».proof.Proof.Slices

set_option maxRecDepth 16384

noncomputable section

namespace Cert.Sim

open Idealize.ShloMosaic Idealize.ShloMosaic.TcCoe Idealize.ShloMosaic.ValueIdx Idealize.SL.Sem Idealize.ShloMosaic.StableHlo
open Cert.KernelIdeal Cert.KernelIdeal.Gen

variable (WK : Valuation τ sig (Elt Ideal)) (WR WR' : Valuation Cert.ReferenceIdeal.τ Cert.ReferenceIdeal.sig (Elt Ideal))

set_option maxHeartbeats 16000000 in
/-- Self-loops, degrees and edge weights: from contents agreeing on the edge list, the row indices, the column indices
    and the edge weights agree. -/
theorem norm_sim (h1 : WK (Proc.devRef .tc main_arg1) = WR (Proc.devRef .tc Cert.ReferenceIdeal.main_arg1)) :
    StableHlo.after hostOps0_2 (StableHlo.after hostOps0_1 (StableHlo.after hostOps0 WK)) (Proc.devRef .tc main_v5) = StableHlo.after sliceNorm (StableHlo.after sliceRows WR) (Proc.devRef .tc Cert.ReferenceIdeal.main_v6)
    ∧ StableHlo.after hostOps0_2 (StableHlo.after hostOps0_1 (StableHlo.after hostOps0 WK)) (Proc.devRef .tc main_v6) = StableHlo.after sliceNorm (StableHlo.after sliceRows WR) (Proc.devRef .tc Cert.ReferenceIdeal.main_v7)
    ∧ StableHlo.after hostOps0_2 (StableHlo.after hostOps0_1 (StableHlo.after hostOps0 WK)) (Proc.devRef .tc main_v29) = StableHlo.after sliceNorm (StableHlo.after sliceRows WR) (Proc.devRef .tc Cert.ReferenceIdeal.main_v30) := by
  simp only [hostOps0_2, hostOps0_1, hostOps0, opsR, sliceRows, sliceNorm, sliceLayer1, sliceProj2, sliceNorm2, sliceTail, Cert.ReferenceIdeal.ValueP.ops, List.take_succ_cons, List.take_zero, List.drop_succ_cons, List.drop_zero]
  after_results_simp
  repeat (first
    | rw [StableHlo.nullary_result] | rw [StableHlo.unary_result] | rw [StableHlo.binary_result] | rw [StableHlo.ternary_result] | rw [StableHlo.reshape_result]
    | (rw [StableHlo.nullary_result_ne]; rotate_left; decide) | (rw [StableHlo.unary_result_ne]; rotate_left; decide)
    | (rw [StableHlo.binary_result_ne]; rotate_left; decide) | (rw [StableHlo.ternary_result_ne]; rotate_left; decide)
    | (rw [StableHlo.reshape_result_ne]; rotate_left; decide))
  rw [h1]
  exact ⟨rfl, rfl, rfl⟩

end Cert.Sim

end
-- ==== Proof.StageProj.lean ====
/-
  The reference's two projections are the host's `dot_general`s that the first and third regions were shown to compute:
  what its slices leave in the two projection buffers, read off the operations.
-/
import proofs.«135749_j3676492005492_1_alg».proof.Proof.Levels
import proofs.«135749_j3676492005492_1_alg».proof.Proof.Slices

set_option maxRecDepth 16384

noncomputable section

namespace Cert.Sim

open Idealize.ShloMosaic Idealize.ShloMosaic.TcCoe Idealize.ShloMosaic.ValueIdx Idealize.SL.Sem Idealize.ShloMosaic.StableHlo
open Cert.KernelIdeal Cert.KernelIdeal.Gen

variable (WK : Valuation τ sig (Elt Ideal)) (WR WR' : Valuation Cert.ReferenceIdeal.τ Cert.ReferenceIdeal.sig (Elt Ideal))

/-- The reference's first projection is the host's product of the feature matrix with the first weights. -/
theorem proj1_ref : StableHlo.after sliceNorm (StableHlo.after sliceRows WR) (Proc.devRef .tc Cert.ReferenceIdeal.main_v4) = Cert.KernelIdeal.Proj1.proj1 (WR (Proc.devRef .tc Cert.ReferenceIdeal.main_arg0)) (WR (Proc.devRef .tc Cert.ReferenceIdeal.main_arg3)) := by
  simp only [opsR, sliceRows, sliceNorm, sliceLayer1, sliceProj2, sliceNorm2, sliceTail, Cert.ReferenceIdeal.ValueP.ops, List.take_succ_cons, List.take_zero, List.drop_succ_cons, List.drop_zero]
  after_results_simp
  rfl

/-- The reference's second projection is the host's product of the activated first layer with the second weights. -/
theorem proj2_ref : StableHlo.after sliceProj2 WR (Proc.devRef .tc Cert.ReferenceIdeal.main_v48)
    = Cert.KernelIdeal.Proj2.proj2 (WR (Proc.devRef .tc Cert.ReferenceIdeal.main_v47)) (WR (Proc.devRef .tc Cert.ReferenceIdeal.main_arg5)) := by
  simp only [opsR, sliceRows, sliceNorm, sliceLayer1, sliceProj2, sliceNorm2, sliceTail, Cert.ReferenceIdeal.ValueP.ops, List.take_succ_cons, List.take_zero, List.drop_succ_cons, List.drop_zero]
  after_results_simp
  rfl

end Cert.Sim

end
-- ==== Proof.StageLayer1.lean ====
/-
  The first propagation — gather the first projection by the column indices, scale by the edge weights, scatter-add by
  the row indices —, then bias and relu: the kernel's middle host stretch followed by its second region (shown to be
  bias and relu of what the stretch leaves) against the reference's slice, which ends in its bias addition and `relu`.
-/
import proofs.«135749_j3676492005492_1_alg».proof.Proof.Levels
import proofs.«135749_j3676492005492_1_alg».proof.Proof.Slices

set_option maxRecDepth 16384

noncomputable section

namespace Cert.Sim

open Idealize.ShloMosaic Idealize.ShloMosaic.TcCoe Idealize.ShloMosaic.ValueIdx Idealize.SL.Sem Idealize.ShloMosaic.StableHlo
open Cert.KernelIdeal Cert.KernelIdeal.Gen

variable (WK : Valuation τ sig (Elt Ideal)) (WR WR' : Valuation Cert.ReferenceIdeal.τ Cert.ReferenceIdeal.sig (Elt Ideal))

set_option maxHeartbeats 16000000 in
/-- The first propagation, then bias and relu: from contents agreeing on the first projection, the two index vectors, the
    edge weights and the first bias, the activated first layer agrees. The reference's `relu` is an outlined function:
    its buffers are read and written through a transport along the buffer's type equation, which is the identity
    (`c47` … `cct`); with the transports removed the two sides are the same operations of the same contents. -/
theorem layer1_sim (h30 : WK (Proc.devRef .tc main_v30) = WR (Proc.devRef .tc Cert.ReferenceIdeal.main_v4)) (h6 : WK (Proc.devRef .tc main_v6) = WR (Proc.devRef .tc Cert.ReferenceIdeal.main_v7))
    (h29 : WK (Proc.devRef .tc main_v29) = WR (Proc.devRef .tc Cert.ReferenceIdeal.main_v30)) (h5 : WK (Proc.devRef .tc main_v5) = WR (Proc.devRef .tc Cert.ReferenceIdeal.main_v6))
    (h4 : WK (Proc.devRef .tc main_arg4) = WR (Proc.devRef .tc Cert.ReferenceIdeal.main_arg4)) :
    Cert.KernelIdeal.BiasRelu.biasRelu (StableHlo.after hostOps1 WK (Proc.devRef .tc main_v43)) (WK (Proc.devRef .tc main_arg4))
      = StableHlo.after sliceLayer1 WR (Proc.devRef .tc Cert.ReferenceIdeal.main_v47) := by
  simp only [hostOps1, opsR, sliceRows, sliceNorm, sliceLayer1, sliceProj2, sliceNorm2, sliceTail, Cert.ReferenceIdeal.ValueP.ops, List.take_succ_cons, List.take_zero, List.drop_succ_cons, List.drop_zero]
  after_results_simp
  rw [h30, h6, h29, h5, h4]
  unfold Cert.KernelIdeal.BiasRelu.biasRelu
  have c47 : ∀ v : FVec Ideal Cert.ReferenceIdeal.S50000x128 .f32,
      (StableHlo.TRef.of (T := ⟨Cert.ReferenceIdeal.S50000x128, .f32⟩) Cert.ReferenceIdeal.main_v47).toBuf (Val := Elt Ideal) v = v := fun v => eq_of_heq (cast_heq _ _)
  have c46 : ∀ v : FVec Ideal Cert.ReferenceIdeal.S50000x128 .f32,
      (StableHlo.TRef.of (T := ⟨Cert.ReferenceIdeal.S50000x128, .f32⟩) Cert.ReferenceIdeal.main_v46).ofBuf (Val := Elt Ideal) v = v := fun v => eq_of_heq (cast_heq _ _)
  have c0o : ∀ v : FVec Ideal Cert.ReferenceIdeal.S50000x128 .f32,
      (StableHlo.TRef.of (T := ⟨Cert.ReferenceIdeal.S50000x128, .f32⟩) Cert.ReferenceIdeal.main_call1_v0).ofBuf (Val := Elt Ideal) v = v := fun v => eq_of_heq (cast_heq _ _)
  have c0t : ∀ v : FVec Ideal Cert.ReferenceIdeal.S50000x128 .f32,
      (StableHlo.TRef.of (T := ⟨Cert.ReferenceIdeal.S50000x128, .f32⟩) Cert.ReferenceIdeal.main_call1_v0).toBuf (Val := Elt Ideal) v = v := fun v => eq_of_heq (cast_heq _ _)
  have cco : ∀ v : FVec Ideal Cert.ReferenceIdeal.S_ .f32,
      (StableHlo.TRef.of (T := ⟨Cert.ReferenceIdeal.S_, .f32⟩) Cert.ReferenceIdeal.main_call1_cst).ofBuf (Val := Elt Ideal) v = v := fun v => eq_of_heq (cast_heq _ _)
  have cct : ∀ v : FVec Ideal Cert.ReferenceIdeal.S_ .f32,
      (StableHlo.TRef.of (T := ⟨Cert.ReferenceIdeal.S_, .f32⟩) Cert.ReferenceIdeal.main_call1_cst).toBuf (Val := Elt Ideal) v = v := fun v => eq_of_heq (cast_heq _ _)
  rw [c47, c46, c0o, c0t, cco, cct]
  rfl

end Cert.Sim

end
-- ==== Proof.StageNorm2.lean ====
/-
  The reference derives the index vectors and the edge weights a second time, for its second layer, from the same two
  rows of the edge list and a fresh `iota`: the same operations on the same inputs, so the same values as the first time.
-/
import proofs.«135749_j3676492005492_1_alg».proof.Proof.Levels
import proofs.«135749_j3676492005492_1_alg».proof.Proof.Slices

set_option maxRecDepth 16384

noncomputable section

namespace Cert.Sim

open Idealize.ShloMosaic Idealize.ShloMosaic.TcCoe Idealize.ShloMosaic.ValueIdx Idealize.SL.Sem Idealize.ShloMosaic.StableHlo
open Cert.KernelIdeal Cert.KernelIdeal.Gen

variable (WK : Valuation τ sig (Elt Ideal)) (WR WR' : Valuation Cert.ReferenceIdeal.τ Cert.ReferenceIdeal.sig (Elt Ideal))

set_option maxHeartbeats 16000000 in
/-- The reference derives the index vectors and the edge weights a second time for its second layer, from the same two
    rows of the edge list: the second derivation gives what the first gave. -/
theorem norm2_ref (e1 : WR (Proc.devRef .tc Cert.ReferenceIdeal.main_v1) = WR' (Proc.devRef .tc Cert.ReferenceIdeal.main_v1)) (e3 : WR (Proc.devRef .tc Cert.ReferenceIdeal.main_v3) = WR' (Proc.devRef .tc Cert.ReferenceIdeal.main_v3)) :
    StableHlo.after sliceNorm WR (Proc.devRef .tc Cert.ReferenceIdeal.main_v6) = StableHlo.after sliceNorm2 WR' (Proc.devRef .tc Cert.ReferenceIdeal.main_v50)
    ∧ StableHlo.after sliceNorm WR (Proc.devRef .tc Cert.ReferenceIdeal.main_v7) = StableHlo.after sliceNorm2 WR' (Proc.devRef .tc Cert.ReferenceIdeal.main_v51)
    ∧ StableHlo.after sliceNorm WR (Proc.devRef .tc Cert.ReferenceIdeal.main_v30) = StableHlo.after sliceNorm2 WR' (Proc.devRef .tc Cert.ReferenceIdeal.main_v74) := by
  simp only [opsR, sliceRows, sliceNorm, sliceLayer1, sliceProj2, sliceNorm2, sliceTail, Cert.ReferenceIdeal.ValueP.ops, List.take_succ_cons, List.take_zero, List.drop_succ_cons, List.drop_zero]
  after_results_simp
  repeat (first
    | rw [StableHlo.nullary_result] | rw [StableHlo.unary_result] | rw [StableHlo.binary_result] | rw [StableHlo.ternary_result] | rw [StableHlo.reshape_result]
    | (rw [StableHlo.nullary_result_ne]; rotate_left; decide) | (rw [StableHlo.unary_result_ne]; rotate_left; decide)
    | (rw [StableHlo.binary_result_ne]; rotate_left; decide) | (rw [StableHlo.ternary_result_ne]; rotate_left; decide)
    | (rw [StableHlo.reshape_result_ne]; rotate_left; decide))
  rw [e1, e3]
  exact ⟨rfl, rfl, rfl⟩

end Cert.Sim

end
-- ==== Proof.StageTail.lean ====
/-
  The last stretch: the second propagation, the second bias, the sum over each graph divided by the graph's size
  (clipped below at 1), and `log_softmax` along the classes — the kernel's host tail against the reference's last slice.
-/
import proofs.«135749_j3676492005492_1_alg».proof.Proof.Levels
import proofs.«135749_j3676492005492_1_alg».proof.Proof.Slices

set_option maxRecDepth 16384

noncomputable section

namespace Cert.Sim

open Idealize.ShloMosaic Idealize.ShloMosaic.TcCoe Idealize.ShloMosaic.ValueIdx Idealize.SL.Sem Idealize.ShloMosaic.StableHlo
open Cert.KernelIdeal Cert.KernelIdeal.Gen

variable (WK : Valuation τ sig (Elt Ideal)) (WR WR' : Valuation Cert.ReferenceIdeal.τ Cert.ReferenceIdeal.sig (Elt Ideal))

set_option maxHeartbeats 16000000 in
/-- The second propagation, the second bias, the mean over each graph and `log_softmax`: from contents agreeing on the
    second projection, the two index vectors, the edge weights, the second bias and the graph ids, the results agree. -/
theorem tail_sim (h46 : WK (Proc.devRef .tc main_v46) = WR (Proc.devRef .tc Cert.ReferenceIdeal.main_v48)) (h6 : WK (Proc.devRef .tc main_v6) = WR (Proc.devRef .tc Cert.ReferenceIdeal.main_v51))
    (h29 : WK (Proc.devRef .tc main_v29) = WR (Proc.devRef .tc Cert.ReferenceIdeal.main_v74)) (h5 : WK (Proc.devRef .tc main_v5) = WR (Proc.devRef .tc Cert.ReferenceIdeal.main_v50))
    (ha6 : WK (Proc.devRef .tc main_arg6) = WR (Proc.devRef .tc Cert.ReferenceIdeal.main_arg6)) (ha2 : WK (Proc.devRef .tc main_arg2) = WR (Proc.devRef .tc Cert.ReferenceIdeal.main_arg2)) :
    StableHlo.after hostOps3_3 (StableHlo.after hostOps3_2 (StableHlo.after hostOps3_1 (StableHlo.after hostOps3 WK))) (Proc.devRef .tc main_v74)
      = StableHlo.after sliceTail WR (Proc.devRef .tc Cert.ReferenceIdeal.main_v102) := by
  simp only [hostOps3_3, hostOps3_2, hostOps3_1, hostOps3, opsR, sliceRows, sliceNorm, sliceLayer1, sliceProj2, sliceNorm2, sliceTail, Cert.ReferenceIdeal.ValueP.ops, List.take_succ_cons, List.take_zero, List.drop_succ_cons, List.drop_zero]
  after_results_simp
  rw [h46, h6, h29, h5, ha6, ha2]
  rfl

end Cert.Sim

end
-- ==== Proof.Passes.lean ====
/-
  What the stretches leave alone. A host operation rewrites the one buffer it writes and nothing else, so a buffer that
  no operation of a stretch writes holds after the stretch what it held before: the arguments through every stretch;
  the index vectors and the edge weights through the kernel's middle stretch; on the reference's side the two rows of the
  edge list up to the second derivation of the index vectors, and the second projection through that derivation.
-/
import proofs.«135749_j3676492005492_1_alg».proof.Proof.Levels
import proofs.«135749_j3676492005492_1_alg».proof.Proof.Slices

set_option maxRecDepth 16384

noncomputable section

namespace Cert.Sim

open Idealize.ShloMosaic Idealize.ShloMosaic.TcCoe Idealize.ShloMosaic.ValueIdx Idealize.SL.Sem Idealize.ShloMosaic.StableHlo
open Cert.KernelIdeal Cert.KernelIdeal.Gen

variable (WK : Valuation τ sig (Elt Ideal)) (WR WR' : Valuation Cert.ReferenceIdeal.τ Cert.ReferenceIdeal.sig (Elt Ideal))

/-- The kernel's host stretches before its first region write none of the arguments. -/
theorem pre_keeps :
    StableHlo.after hostOps0_2 (StableHlo.after hostOps0_1 (StableHlo.after hostOps0 WK)) (Proc.devRef .tc main_arg0) = WK (Proc.devRef .tc main_arg0) ∧ StableHlo.after hostOps0_2 (StableHlo.after hostOps0_1 (StableHlo.after hostOps0 WK)) (Proc.devRef .tc main_arg3) = WK (Proc.devRef .tc main_arg3)
    ∧ StableHlo.after hostOps0_2 (StableHlo.after hostOps0_1 (StableHlo.after hostOps0 WK)) (Proc.devRef .tc main_arg4) = WK (Proc.devRef .tc main_arg4) ∧ StableHlo.after hostOps0_2 (StableHlo.after hostOps0_1 (StableHlo.after hostOps0 WK)) (Proc.devRef .tc main_arg5) = WK (Proc.devRef .tc main_arg5)
    ∧ StableHlo.after hostOps0_2 (StableHlo.after hostOps0_1 (StableHlo.after hostOps0 WK)) (Proc.devRef .tc main_arg6) = WK (Proc.devRef .tc main_arg6) ∧ StableHlo.after hostOps0_2 (StableHlo.after hostOps0_1 (StableHlo.after hostOps0 WK)) (Proc.devRef .tc main_arg2) = WK (Proc.devRef .tc main_arg2) := by
  refine ⟨?_, ?_, ?_, ?_, ?_, ?_⟩ <;> (simp only [hostOps0_2, hostOps0_1, hostOps0]; after_results_simp)

/-- The kernel's host stretch between its first two regions writes neither the index vectors, nor the edge weights,
    nor the arguments read after it. -/
theorem mid_keeps :
    StableHlo.after hostOps1 WK (Proc.devRef .tc main_v5) = WK (Proc.devRef .tc main_v5) ∧ StableHlo.after hostOps1 WK (Proc.devRef .tc main_v6) = WK (Proc.devRef .tc main_v6) ∧ StableHlo.after hostOps1 WK (Proc.devRef .tc main_v29) = WK (Proc.devRef .tc main_v29)
    ∧ StableHlo.after hostOps1 WK (Proc.devRef .tc main_arg5) = WK (Proc.devRef .tc main_arg5) ∧ StableHlo.after hostOps1 WK (Proc.devRef .tc main_arg6) = WK (Proc.devRef .tc main_arg6)
    ∧ StableHlo.after hostOps1 WK (Proc.devRef .tc main_arg2) = WK (Proc.devRef .tc main_arg2) := by
  refine ⟨?_, ?_, ?_, ?_, ?_, ?_⟩ <;> (simp only [hostOps1]; after_results_simp)

/-- The reference's slice taking the two rows of the edge list writes none of the arguments. -/
theorem rows_keeps :
    StableHlo.after sliceRows WR (Proc.devRef .tc Cert.ReferenceIdeal.main_arg4) = WR (Proc.devRef .tc Cert.ReferenceIdeal.main_arg4) ∧ StableHlo.after sliceRows WR (Proc.devRef .tc Cert.ReferenceIdeal.main_arg5) = WR (Proc.devRef .tc Cert.ReferenceIdeal.main_arg5)
    ∧ StableHlo.after sliceRows WR (Proc.devRef .tc Cert.ReferenceIdeal.main_arg6) = WR (Proc.devRef .tc Cert.ReferenceIdeal.main_arg6) ∧ StableHlo.after sliceRows WR (Proc.devRef .tc Cert.ReferenceIdeal.main_arg2) = WR (Proc.devRef .tc Cert.ReferenceIdeal.main_arg2) := by
  refine ⟨?_, ?_, ?_, ?_⟩ <;> (simp only [opsR, sliceRows, sliceNorm, sliceLayer1, sliceProj2, sliceNorm2, sliceTail, Cert.ReferenceIdeal.ValueP.ops, List.take_succ_cons, List.take_zero, List.drop_succ_cons, List.drop_zero]; after_results_simp)

/-- The slice deriving the index vectors and the edge weights writes neither the arguments nor the two rows. -/
theorem norm_keeps :
    StableHlo.after sliceNorm WR (Proc.devRef .tc Cert.ReferenceIdeal.main_arg4) = WR (Proc.devRef .tc Cert.ReferenceIdeal.main_arg4) ∧ StableHlo.after sliceNorm WR (Proc.devRef .tc Cert.ReferenceIdeal.main_arg5) = WR (Proc.devRef .tc Cert.ReferenceIdeal.main_arg5)
    ∧ StableHlo.after sliceNorm WR (Proc.devRef .tc Cert.ReferenceIdeal.main_arg6) = WR (Proc.devRef .tc Cert.ReferenceIdeal.main_arg6) ∧ StableHlo.after sliceNorm WR (Proc.devRef .tc Cert.ReferenceIdeal.main_arg2) = WR (Proc.devRef .tc Cert.ReferenceIdeal.main_arg2)
    ∧ StableHlo.after sliceNorm WR (Proc.devRef .tc Cert.ReferenceIdeal.main_v1) = WR (Proc.devRef .tc Cert.ReferenceIdeal.main_v1) ∧ StableHlo.after sliceNorm WR (Proc.devRef .tc Cert.ReferenceIdeal.main_v3) = WR (Proc.devRef .tc Cert.ReferenceIdeal.main_v3) := by
  refine ⟨?_, ?_, ?_, ?_, ?_, ?_⟩ <;> (simp only [opsR, sliceRows, sliceNorm, sliceLayer1, sliceProj2, sliceNorm2, sliceTail, Cert.ReferenceIdeal.ValueP.ops, List.take_succ_cons, List.take_zero, List.drop_succ_cons, List.drop_zero]; after_results_simp)

/-- The first layer's slice writes neither the later arguments nor the two rows. -/
theorem layer1_keeps :
    StableHlo.after sliceLayer1 WR (Proc.devRef .tc Cert.ReferenceIdeal.main_arg5) = WR (Proc.devRef .tc Cert.ReferenceIdeal.main_arg5) ∧ StableHlo.after sliceLayer1 WR (Proc.devRef .tc Cert.ReferenceIdeal.main_arg6) = WR (Proc.devRef .tc Cert.ReferenceIdeal.main_arg6)
    ∧ StableHlo.after sliceLayer1 WR (Proc.devRef .tc Cert.ReferenceIdeal.main_arg2) = WR (Proc.devRef .tc Cert.ReferenceIdeal.main_arg2)
    ∧ StableHlo.after sliceLayer1 WR (Proc.devRef .tc Cert.ReferenceIdeal.main_v1) = WR (Proc.devRef .tc Cert.ReferenceIdeal.main_v1) ∧ StableHlo.after sliceLayer1 WR (Proc.devRef .tc Cert.ReferenceIdeal.main_v3) = WR (Proc.devRef .tc Cert.ReferenceIdeal.main_v3) := by
  refine ⟨?_, ?_, ?_, ?_, ?_⟩ <;> (simp only [opsR, sliceRows, sliceNorm, sliceLayer1, sliceProj2, sliceNorm2, sliceTail, Cert.ReferenceIdeal.ValueP.ops, List.take_succ_cons, List.take_zero, List.drop_succ_cons, List.drop_zero]; after_results_simp)

/-- The second projection writes neither the later arguments nor the two rows. -/
theorem proj2_keeps :
    StableHlo.after sliceProj2 WR (Proc.devRef .tc Cert.ReferenceIdeal.main_arg6) = WR (Proc.devRef .tc Cert.ReferenceIdeal.main_arg6) ∧ StableHlo.after sliceProj2 WR (Proc.devRef .tc Cert.ReferenceIdeal.main_arg2) = WR (Proc.devRef .tc Cert.ReferenceIdeal.main_arg2)
    ∧ StableHlo.after sliceProj2 WR (Proc.devRef .tc Cert.ReferenceIdeal.main_v1) = WR (Proc.devRef .tc Cert.ReferenceIdeal.main_v1) ∧ StableHlo.after sliceProj2 WR (Proc.devRef .tc Cert.ReferenceIdeal.main_v3) = WR (Proc.devRef .tc Cert.ReferenceIdeal.main_v3) := by
  refine ⟨?_, ?_, ?_, ?_⟩ <;> (simp only [opsR, sliceRows, sliceNorm, sliceLayer1, sliceProj2, sliceNorm2, sliceTail, Cert.ReferenceIdeal.ValueP.ops, List.take_succ_cons, List.take_zero, List.drop_succ_cons, List.drop_zero]; after_results_simp)

/-- The second derivation of the index vectors writes neither the later arguments nor the second projection. -/
theorem norm2_keeps :
    StableHlo.after sliceNorm2 WR (Proc.devRef .tc Cert.ReferenceIdeal.main_arg6) = WR (Proc.devRef .tc Cert.ReferenceIdeal.main_arg6) ∧ StableHlo.after sliceNorm2 WR (Proc.devRef .tc Cert.ReferenceIdeal.main_arg2) = WR (Proc.devRef .tc Cert.ReferenceIdeal.main_arg2)
    ∧ StableHlo.after sliceNorm2 WR (Proc.devRef .tc Cert.ReferenceIdeal.main_v48) = WR (Proc.devRef .tc Cert.ReferenceIdeal.main_v48) := by
  refine ⟨?_, ?_, ?_⟩ <;> (simp only [opsR, sliceRows, sliceNorm, sliceLayer1, sliceProj2, sliceNorm2, sliceTail, Cert.ReferenceIdeal.ValueP.ops, List.take_succ_cons, List.take_zero, List.drop_succ_cons, List.drop_zero]; after_results_simp)

end Cert.Sim

end
-- ==== Proof.Bridge.lean ====
/-
  The two programs meet. The kernel's run has boundaries — after its first host stretches, after each of its three
  regions, after the stretch between the first two — and the reference's one line of operations is cut into matching
  slices. Walking the two side by side: the index vectors and the edge weights agree after the first stretches; the
  first region's result is the reference's first projection; bias and relu of the first propagation is the reference's
  activated first layer; the third region's result is the reference's second projection; the reference's second
  derivation of the index vectors and edge weights gives what the first gave, which the kernel kept; and so the tail —
  second propagation, second bias, the mean over each graph, `log_softmax` — is applied to agreeing contents on both
  sides. Hence the kernel's result buffer at the last boundary of its run holds what the reference's list leaves in its
  result buffer.
-/
import proofs.«135749_j3676492005492_1_alg».proof.Proof.StageNorm
import proofs.«135749_j3676492005492_1_alg».proof.Proof.StageProj
import proofs.«135749_j3676492005492_1_alg».proof.Proof.StageLayer1
import proofs.«135749_j3676492005492_1_alg».proof.Proof.StageNorm2
import proofs.«135749_j3676492005492_1_alg».proof.Proof.StageTail
import proofs.«135749_j3676492005492_1_alg».proof.Proof.Passes

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.KernelIdeal.Levels Cert.Sim

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ) (c : Dev nD)

/-- The reference's buffer contents before each of its slices after the first. -/
abbrev Ra : Valuation Cert.ReferenceIdeal.τ Cert.ReferenceIdeal.sig (Elt Ideal) := StableHlo.after sliceRows (launchContents m' c)
abbrev R1 : Valuation Cert.ReferenceIdeal.τ Cert.ReferenceIdeal.sig (Elt Ideal) := StableHlo.after sliceNorm (Ra m' c)
abbrev R2 : Valuation Cert.ReferenceIdeal.τ Cert.ReferenceIdeal.sig (Elt Ideal) := StableHlo.after sliceLayer1 (R1 m' c)
abbrev R3 : Valuation Cert.ReferenceIdeal.τ Cert.ReferenceIdeal.sig (Elt Ideal) := StableHlo.after sliceProj2 (R2 m' c)
abbrev R4 : Valuation Cert.ReferenceIdeal.τ Cert.ReferenceIdeal.sig (Elt Ideal) := StableHlo.after sliceNorm2 (R3 m' c)

/-- On memories that agree on the seven arguments, the kernel's result buffer at the last boundary of its run holds
    what the reference's operations leave in its result buffer. -/
theorem result_eq (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    W11 m ρ c (Proc.devRef .tc main_v74) = StableHlo.after opsR (launchContents m' c) (Proc.devRef .tc Cert.ReferenceIdeal.main_v102) := by
  have a0 : W0 m ρ c (Proc.devRef .tc main_arg0) = launchContents m' c (Proc.devRef .tc Cert.ReferenceIdeal.main_arg0) := h0.symm
  have a1 : W0 m ρ c (Proc.devRef .tc main_arg1) = launchContents m' c (Proc.devRef .tc Cert.ReferenceIdeal.main_arg1) := h1.symm
  have a2 : W0 m ρ c (Proc.devRef .tc main_arg2) = launchContents m' c (Proc.devRef .tc Cert.ReferenceIdeal.main_arg2) := h2.symm
  have a3 : W0 m ρ c (Proc.devRef .tc main_arg3) = launchContents m' c (Proc.devRef .tc Cert.ReferenceIdeal.main_arg3) := h3.symm
  have a4 : W0 m ρ c (Proc.devRef .tc main_arg4) = launchContents m' c (Proc.devRef .tc Cert.ReferenceIdeal.main_arg4) := h4.symm
  have a5 : W0 m ρ c (Proc.devRef .tc main_arg5) = launchContents m' c (Proc.devRef .tc Cert.ReferenceIdeal.main_arg5) := h5.symm
  have a6 : W0 m ρ c (Proc.devRef .tc main_arg6) = launchContents m' c (Proc.devRef .tc Cert.ReferenceIdeal.main_arg6) := h6.symm
  -- what each stretch leaves alone
  obtain ⟨k0, k3, k4, k5, k6, k2⟩ := pre_keeps (W0 m ρ c)
  obtain ⟨q5, q6, q29, qa5, qa6, qa2⟩ := mid_keeps (W4 m ρ c)
  obtain ⟨r4, r5, r6, r2⟩ := rows_keeps (launchContents m' c)
  obtain ⟨s4, s5, s6, s2, s1, s3⟩ := norm_keeps (Ra m' c)
  obtain ⟨t5, t6, t2, t1, t3⟩ := layer1_keeps (R1 m' c)
  obtain ⟨u6, u2, u1, u3⟩ := proj2_keeps (R2 m' c)
  obtain ⟨x6, x2, x48⟩ := norm2_keeps (R3 m' c)
  -- index vectors and edge weights after the first stretches
  obtain ⟨n5, n6, n29⟩ := norm_sim (W0 m ρ c) (launchContents m' c) a1
  -- the first region: the first projection
  have p1 : W4 m ρ c (Proc.devRef .tc main_v30) = R1 m' c (Proc.devRef .tc Cert.ReferenceIdeal.main_v4) :=
    (after_proj1 m ρ c).trans ((congrArg₂ Proj1.proj1 (k0.trans a0) (k3.trans a3)).trans (proj1_ref (launchContents m' c)).symm)
  have w4_6 : W4 m ρ c (Proc.devRef .tc main_v6) = R1 m' c (Proc.devRef .tc Cert.ReferenceIdeal.main_v7) := (W4_of_ne m ρ c main_v6 (by decide)).trans n6
  have w4_29 : W4 m ρ c (Proc.devRef .tc main_v29) = R1 m' c (Proc.devRef .tc Cert.ReferenceIdeal.main_v30) := (W4_of_ne m ρ c main_v29 (by decide)).trans n29
  have w4_5 : W4 m ρ c (Proc.devRef .tc main_v5) = R1 m' c (Proc.devRef .tc Cert.ReferenceIdeal.main_v6) := (W4_of_ne m ρ c main_v5 (by decide)).trans n5
  have w4_a4 : W4 m ρ c (Proc.devRef .tc main_arg4) = R1 m' c (Proc.devRef .tc Cert.ReferenceIdeal.main_arg4) :=
    (W4_of_ne m ρ c main_arg4 (by decide)).trans (k4.trans (a4.trans (s4.trans r4).symm))
  -- the first propagation and the second region: bias and relu
  have p2 : W6 m ρ c (Proc.devRef .tc main_v45) = R2 m' c (Proc.devRef .tc Cert.ReferenceIdeal.main_v47) :=
    (after_biasRelu m ρ c).trans (layer1_sim (W4 m ρ c) (R1 m' c) p1 w4_6 w4_29 w4_5 w4_a4)
  have w6_a5 : W6 m ρ c (Proc.devRef .tc main_arg5) = R2 m' c (Proc.devRef .tc Cert.ReferenceIdeal.main_arg5) :=
    (W6_of_ne m ρ c main_arg5 (by decide)).trans (qa5.trans ((W4_of_ne m ρ c main_arg5 (by decide)).trans
      (k5.trans (a5.trans (t5.trans (s5.trans r5)).symm))))
  -- the third region: the second projection
  have p3 : W7 m ρ c (Proc.devRef .tc main_v46) = R3 m' c (Proc.devRef .tc Cert.ReferenceIdeal.main_v48) :=
    (after_proj2 m ρ c).trans ((congrArg₂ Proj2.proj2 p2 w6_a5).trans (proj2_ref (R2 m' c)).symm)
  -- the reference's second derivation of the index vectors and edge weights gives what the first gave
  have e1 : Ra m' c (Proc.devRef .tc Cert.ReferenceIdeal.main_v1) = R3 m' c (Proc.devRef .tc Cert.ReferenceIdeal.main_v1) := (u1.trans (t1.trans s1)).symm
  have e3 : Ra m' c (Proc.devRef .tc Cert.ReferenceIdeal.main_v3) = R3 m' c (Proc.devRef .tc Cert.ReferenceIdeal.main_v3) := (u3.trans (t3.trans s3)).symm
  obtain ⟨d6, d7, d30⟩ := norm2_ref (Ra m' c) (R3 m' c) e1 e3
  -- which the kernel kept through its regions and its middle stretch
  have w7_5 : W7 m ρ c (Proc.devRef .tc main_v5) = R4 m' c (Proc.devRef .tc Cert.ReferenceIdeal.main_v50) :=
    (W7_of_ne m ρ c main_v5 (by decide)).trans ((W6_of_ne m ρ c main_v5 (by decide)).trans (q5.trans (w4_5.trans d6)))
  have w7_6 : W7 m ρ c (Proc.devRef .tc main_v6) = R4 m' c (Proc.devRef .tc Cert.ReferenceIdeal.main_v51) :=
    (W7_of_ne m ρ c main_v6 (by decide)).trans ((W6_of_ne m ρ c main_v6 (by decide)).trans (q6.trans (w4_6.trans d7)))
  have w7_29 : W7 m ρ c (Proc.devRef .tc main_v29) = R4 m' c (Proc.devRef .tc Cert.ReferenceIdeal.main_v74) :=
    (W7_of_ne m ρ c main_v29 (by decide)).trans ((W6_of_ne m ρ c main_v29 (by decide)).trans (q29.trans (w4_29.trans d30)))
  have w7_a6 : W7 m ρ c (Proc.devRef .tc main_arg6) = R4 m' c (Proc.devRef .tc Cert.ReferenceIdeal.main_arg6) :=
    (W7_of_ne m ρ c main_arg6 (by decide)).trans ((W6_of_ne m ρ c main_arg6 (by decide)).trans (qa6.trans
      ((W4_of_ne m ρ c main_arg6 (by decide)).trans (k6.trans (a6.trans (x6.trans (u6.trans (t6.trans (s6.trans r6)))).symm)))))
  have w7_a2 : W7 m ρ c (Proc.devRef .tc main_arg2) = R4 m' c (Proc.devRef .tc Cert.ReferenceIdeal.main_arg2) :=
    (W7_of_ne m ρ c main_arg2 (by decide)).trans ((W6_of_ne m ρ c main_arg2 (by decide)).trans (qa2.trans
      ((W4_of_ne m ρ c main_arg2 (by decide)).trans (k2.trans (a2.trans (x2.trans (u2.trans (t2.trans (s2.trans r2)))).symm)))))
  have w7_46 : W7 m ρ c (Proc.devRef .tc main_v46) = R4 m' c (Proc.devRef .tc Cert.ReferenceIdeal.main_v48) := p3.trans x48.symm
  -- the tail, on agreeing contents
  exact (tail_sim (W7 m ρ c) (R4 m' c) w7_46 w7_6 w7_29 w7_5 w7_a6 w7_a2).trans
    (congrFun (ref_split (launchContents m' c)) (Proc.devRef .tc Cert.ReferenceIdeal.main_v102)).symm

end Cert.Bridge

end
-- ==== Proof.lean ====
/-
  A two-layer graph convolution with mean pooling and `log_softmax`, as a kernel of three pipelined regions among host
  operations, against its plain reference: equal results over the extended reals.

  Both programs compute, from node features x, an edge list, graph ids and two weight/bias pairs:
  append a self-loop to every node; deg = the number of edges out of each node, dinv = deg^(-1/2) where deg > 0 and 0
  elsewhere, and the edge weight norm = dinv[row] · dinv[col]; h1 = x · W1; agg1 = the sum, into each row node, of
  h1[col] · norm over its edges; a = max (agg1 + b1, 0); h2 = a · W2; agg2 likewise; out = agg2 + b2; the mean of out
  over the nodes of each graph (the divisor clipped below at 1); `log_softmax` along the classes.

  The kernel does h1, a and h2 in three pipelined regions, each over ten blocks of 5000 rows, with bf16 casts in front
  of the two matrix products (the identity at the ideal values) and a zero accumulator; the reference does them on the
  host. A row of a matrix product depends only on that row of the left operand, and bias-and-relu is entry by entry, so
  each region's ten blocks are the ten row blocks of the host's whole-array operation (Proj1, BiasRelu, Proj2), and the
  kernel's run, walked boundary by boundary beside the reference's list cut into matching slices, ends with the same
  result (the Stage modules, Passes, Bridge). No law of
  the extended reals beyond 0 + s = s enters, so the precondition is never opened.

  The three frames: the two kernels' are the generated frame certificates; the reference's is its run with the result
  dropped. The ideal pass rewrote nothing, so `preserves` is trivially true.
-/
import proofs.«135749_j3676492005492_1_alg».proof.Defs
import proofs.«135749_j3676492005492_1_alg».proof.Proof.Gen.Kernel
import proofs.«135749_j3676492005492_1_alg».proof.Proof.Gen.Kernel.Skeleton
import proofs.«135749_j3676492005492_1_alg».proof.Proof.Gen.Kernel.Launch
import proofs.«135749_j3676492005492_1_alg».proof.Proof.Gen.Kernel.Points
import proofs.«135749_j3676492005492_1_alg».proof.Proof.Gen.Kernel.Frame
import proofs.«135749_j3676492005492_1_alg».proof.Proof.Gen.KernelIdeal
import proofs.«135749_j3676492005492_1_alg».proof.Proof.Gen.KernelIdeal.Skeleton
import proofs.«135749_j3676492005492_1_alg».proof.Proof.Gen.KernelIdeal.Launch
import proofs.«135749_j3676492005492_1_alg».proof.Proof.Gen.KernelIdeal.Points
import proofs.«135749_j3676492005492_1_alg».proof.Proof.Gen.KernelIdeal.Frame
import proofs.«135749_j3676492005492_1_alg».proof.Proof.Gen.ReferenceIdeal
import proofs.«135749_j3676492005492_1_alg».proof.Proof.Gen.Pre_finite_inputs
import proofs.«135749_j3676492005492_1_alg».proof.Proof.KernelRun
import proofs.«135749_j3676492005492_1_alg».proof.Proof.RefFold
import proofs.«135749_j3676492005492_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.Sim.ref_run m ρ)

/-- The ideal pass rewrote no operation. -/
theorem preserves : Cert.preserves_Kernel_KernelIdeal := trivial

/-- Both programs run; the kernel's result is the last boundary's contents at the result buffer, the reference's the fold
    of its operations at its result buffer, and on memories agreeing on the arguments the two are equal. -/
theorem algebraic : Cert.algebraic_KernelIdeal_ReferenceIdeal := by
  intro m ρ m' ρ' _ hagree
  refine ⟨fun c => Cert.KernelIdeal.Gen.W11 m ρ c (Proc.devRef .tc Cert.KernelIdeal.main_v74),
    Cert.KernelIdeal.KRun.run_value m ρ, ?_⟩
  refine (θ_run Cert.ReferenceIdeal.defs _ _).mono (fun _ h c => ⟨(h c).1.trans ?_, (h c).2⟩)
    (Cert.Sim.ref_run m' ρ')
  exact (Cert.Bridge.result_eq m ρ m' c (hagree c).1 (hagree c).2.1 (hagree c).2.2.1 (hagree c).2.2.2.1
    (hagree c).2.2.2.2.1 (hagree c).2.2.2.2.2.1 (hagree c).2.2.2.2.2.2).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
